-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x16 : Shape := ⟨4, ![16, 128, 128, 16]⟩
abbrev S3x3x16x32 : Shape := ⟨4, ![3, 3, 16, 32]⟩
abbrev S_ : Shape := ⟨0, ![]⟩

class Facts : Prop where
  bcast_S_S16x128x128x16 : S_.BroadcastsInDim S16x128x128x16 (![] : Fin 0 → Fin S16x128x128x16.rank)
  reducesTo_S16x128x128x16_S_d0_1_2_3 : S16x128x128x16.ReducesTo [0, 1, 2, 3] S_
  h_S_ : 0 < S_.numel
  bcast_S_S3x3x16x32 : S_.BroadcastsInDim S3x3x16x32 (![] : Fin 0 → Fin S3x3x16x32.rank)
  reducesTo_S3x3x16x32_S_d0_1_2_3 : S3x3x16x32.ReducesTo [0, 1, 2, 3] S_

variable [Facts]

def fn {F : FTy → Type} [FloatOps F] (main_arg0 : FVec F S16x128x128x16 .f32) (main_arg1 : FVec F S3x3x16x32 .f32) : IVec S_ 1 :=
  let main_v0 : FVec F S16x128x128x16 .f32 := Host.absf main_arg0
  let main_cst : FVec F S_ .f32 := constant S_ .f32 0x7F800000#32
  let main_v1 : FVec F S16x128x128x16 .f32 := broadcastInDim S16x128x128x16 ![] bcast_S_S16x128x128x16 main_cst
  let main_v2 : IVec S16x128x128x16 1 := cmpf .olt main_v0 main_v1
  let main_c : IVec S_ 1 := constantI S_ 1 1#1
  let main_v3 : IVec S_ 1 := (fun x v => Host.reduce IntOp.andi x v reducesTo_S16x128x128x16_S_d0_1_2_3 h_S_) main_v2 main_c
  let main_v4 : FVec F S3x3x16x32 .f32 := Host.absf main_arg1
  let main_cst_0 : FVec F S_ .f32 := constant S_ .f32 0x7F800000#32
  let main_v5 : FVec F S3x3x16x32 .f32 := broadcastInDim S3x3x16x32 ![] bcast_S_S3x3x16x32 main_cst_0
  let main_v6 : IVec S3x3x16x32 1 := cmpf .olt main_v4 main_v5
  let main_c_1 : IVec S_ 1 := constantI S_ 1 1#1
  let main_v7 : IVec S_ 1 := (fun x v => Host.reduce IntOp.andi x v reducesTo_S3x3x16x32_S_d0_1_2_3 h_S_) main_v6 main_c_1
  let main_v8 : IVec S_ 1 := andi main_v3 main_v7
  main_v8
-- ==== Kernel.lean ====
abbrev S16x128x128x16 : Shape := ⟨4, ![16, 128, 128, 16]⟩
abbrev S3x3x16x32 : Shape := ⟨4, ![3, 3, 16, 32]⟩
abbrev S16x126x126x32 : Shape := ⟨4, ![16, 126, 126, 32]⟩
abbrev S1x128x128x16 : Shape := ⟨4, ![1, 128, 128, 16]⟩
abbrev S1x126x126x32 : Shape := ⟨4, ![1, 126, 126, 32]⟩
abbrev S128x128x16 : Shape := ⟨3, ![128, 128, 16]⟩
abbrev S126x126x32 : Shape := ⟨3, ![126, 126, 32]⟩
abbrev S126x126x16 : Shape := ⟨3, ![126, 126, 16]⟩
abbrev S1x1x16x32 : Shape := ⟨4, ![1, 1, 16, 32]⟩
abbrev S16x32 : Shape := ⟨2, ![16, 32]⟩
abbrev S126x126x1 : Shape := ⟨3, ![126, 126, 1]⟩
abbrev S126x126 : Shape := ⟨2, ![126, 126]⟩
abbrev S1x32 : Shape := ⟨2, ![1, 32]⟩
abbrev S32 : Shape := ⟨1, ![32]⟩
abbrev S1x1x32 : Shape := ⟨3, ![1, 1, 32]⟩

abbrev nBuf : Space → Nat
  | .hbm => 3
  | .vmem => 5
  | .smem => 0
  | _ => 0

abbrev bufTy : (tb : Table) → Fin (tcTables nBuf tb) → BufTy
  | .hbm, ⟨0, _⟩ => ⟨S16x128x128x16, .f32⟩
  | .hbm, ⟨1, _⟩ => ⟨S3x3x16x32, .f32⟩
  | .hbm, ⟨2, _⟩ => ⟨S16x126x126x32, .f32⟩
  | .local _ .vmem, ⟨0, _⟩ => ⟨S1x128x128x16, .f32⟩
  | .local _ .vmem, ⟨1, _⟩ => ⟨S1x128x128x16, .f32⟩
  | .local _ .vmem, ⟨2, _⟩ => ⟨S3x3x16x32, .f32⟩
  | .local _ .vmem, ⟨3, _⟩ => ⟨S1x126x126x32, .f32⟩
  | .local _ .vmem, ⟨4, _⟩ => ⟨S1x126x126x32, .f32⟩
  | _, _ => ⟨S16x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x126x126x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x128x128x16_S1x128x128x16_0_0_0_0 : ∀ a, (![0, 0, 0, 0] : Fin 4 → Nat) a + S1x128x128x16.size a ≤ S1x128x128x16.size a
  h_S1x128x128x16 : 0 < S1x128x128x16.numel
  shapeCasts_S1x128x128x16_S128x128x16 : S1x128x128x16.ShapeCasts S128x128x16
  inb_S3x3x16x32_S3x3x16x32_0_0_0_0 : ∀ a, (![0, 0, 0, 0] : Fin 4 → Nat) a + S3x3x16x32.size a ≤ S3x3x16x32.size a
  h_S3x3x16x32 : 0 < S3x3x16x32.numel
  slices_S128x128x16_o0_0_0_S126x126x16 : S128x128x16.Slices ![0, 0, 0] S126x126x16
  slices_S3x3x16x32_o0_0_0_0_S1x1x16x32 : S3x3x16x32.Slices ![0, 0, 0, 0] S1x1x16x32
  shapeCasts_S1x1x16x32_S16x32 : S1x1x16x32.ShapeCasts S16x32
  slices_S126x126x16_o0_0_0_S126x126x1 : S126x126x16.Slices ![0, 0, 0] S126x126x1
  shapeCasts_S126x126x1_S126x126 : S126x126x1.ShapeCasts S126x126
  shapeCasts_S126x126_S126x126x1 : S126x126.ShapeCasts S126x126x1
  slices_S16x32_o0_0_S1x32 : S16x32.Slices ![0, 0] S1x32
  shapeCasts_S1x32_S32 : S1x32.ShapeCasts S32
  shapeCasts_S32_S1x1x32 : S32.ShapeCasts S1x1x32
  broadcasts_S126x126x1_S126x126x32 : S126x126x1.Broadcasts S126x126x32
  broadcasts_S1x1x32_S126x126x32 : S1x1x32.Broadcasts S126x126x32
  slices_S126x126x16_o0_0_1_S126x126x1 : S126x126x16.Slices ![0, 0, 1] S126x126x1
  slices_S16x32_o1_0_S1x32 : S16x32.Slices ![1, 0] S1x32
  slices_S126x126x16_o0_0_2_S126x126x1 : S126x126x16.Slices ![0, 0, 2] S126x126x1
  slices_S16x32_o2_0_S1x32 : S16x32.Slices ![2, 0] S1x32
  slices_S126x126x16_o0_0_3_S126x126x1 : S126x126x16.Slices ![0, 0, 3] S126x126x1
  slices_S16x32_o3_0_S1x32 : S16x32.Slices ![3, 0] S1x32
  slices_S126x126x16_o0_0_4_S126x126x1 : S126x126x16.Slices ![0, 0, 4] S126x126x1
  slices_S16x32_o4_0_S1x32 : S16x32.Slices ![4, 0] S1x32
  slices_S126x126x16_o0_0_5_S126x126x1 : S126x126x16.Slices ![0, 0, 5] S126x126x1
  slices_S16x32_o5_0_S1x32 : S16x32.Slices ![5, 0] S1x32
  slices_S126x126x16_o0_0_6_S126x126x1 : S126x126x16.Slices ![0, 0, 6] S126x126x1
  slices_S16x32_o6_0_S1x32 : S16x32.Slices ![6, 0] S1x32
  slices_S126x126x16_o0_0_7_S126x126x1 : S126x126x16.Slices ![0, 0, 7] S126x126x1
  slices_S16x32_o7_0_S1x32 : S16x32.Slices ![7, 0] S1x32
  slices_S126x126x16_o0_0_8_S126x126x1 : S126x126x16.Slices ![0, 0, 8] S126x126x1
  slices_S16x32_o8_0_S1x32 : S16x32.Slices ![8, 0] S1x32
  slices_S126x126x16_o0_0_9_S126x126x1 : S126x126x16.Slices ![0, 0, 9] S126x126x1
  slices_S16x32_o9_0_S1x32 : S16x32.Slices ![9, 0] S1x32
  slices_S126x126x16_o0_0_10_S126x126x1 : S126x126x16.Slices ![0, 0, 10] S126x126x1
  slices_S16x32_o10_0_S1x32 : S16x32.Slices ![10, 0] S1x32
  slices_S126x126x16_o0_0_11_S126x126x1 : S126x126x16.Slices ![0, 0, 11] S126x126x1
  slices_S16x32_o11_0_S1x32 : S16x32.Slices ![11, 0] S1x32
  slices_S126x126x16_o0_0_12_S126x126x1 : S126x126x16.Slices ![0, 0, 12] S126x126x1
  slices_S16x32_o12_0_S1x32 : S16x32.Slices ![12, 0] S1x32
  slices_S126x126x16_o0_0_13_S126x126x1 : S126x126x16.Slices ![0, 0, 13] S126x126x1
  slices_S16x32_o13_0_S1x32 : S16x32.Slices ![13, 0] S1x32
  slices_S126x126x16_o0_0_14_S126x126x1 : S126x126x16.Slices ![0, 0, 14] S126x126x1
  slices_S16x32_o14_0_S1x32 : S16x32.Slices ![14, 0] S1x32
  slices_S126x126x16_o0_0_15_S126x126x1 : S126x126x16.Slices ![0, 0, 15] S126x126x1
  slices_S16x32_o15_0_S1x32 : S16x32.Slices ![15, 0] S1x32
  slices_S128x128x16_o0_1_0_S126x126x16 : S128x128x16.Slices ![0, 1, 0] S126x126x16
  slices_S3x3x16x32_o0_1_0_0_S1x1x16x32 : S3x3x16x32.Slices ![0, 1, 0, 0] S1x1x16x32
  slices_S128x128x16_o0_2_0_S126x126x16 : S128x128x16.Slices ![0, 2, 0] S126x126x16
  slices_S3x3x16x32_o0_2_0_0_S1x1x16x32 : S3x3x16x32.Slices ![0, 2, 0, 0] S1x1x16x32
  slices_S128x128x16_o1_0_0_S126x126x16 : S128x128x16.Slices ![1, 0, 0] S126x126x16
  slices_S3x3x16x32_o1_0_0_0_S1x1x16x32 : S3x3x16x32.Slices ![1, 0, 0, 0] S1x1x16x32
  slices_S128x128x16_o1_1_0_S126x126x16 : S128x128x16.Slices ![1, 1, 0] S126x126x16
  slices_S3x3x16x32_o1_1_0_0_S1x1x16x32 : S3x3x16x32.Slices ![1, 1, 0, 0] S1x1x16x32
  slices_S128x128x16_o1_2_0_S126x126x16 : S128x128x16.Slices ![1, 2, 0] S126x126x16
  slices_S3x3x16x32_o1_2_0_0_S1x1x16x32 : S3x3x16x32.Slices ![1, 2, 0, 0] S1x1x16x32
  slices_S128x128x16_o2_0_0_S126x126x16 : S128x128x16.Slices ![2, 0, 0] S126x126x16
  slices_S3x3x16x32_o2_0_0_0_S1x1x16x32 : S3x3x16x32.Slices ![2, 0, 0, 0] S1x1x16x32
  slices_S128x128x16_o2_1_0_S126x126x16 : S128x128x16.Slices ![2, 1, 0] S126x126x16
  slices_S3x3x16x32_o2_1_0_0_S1x1x16x32 : S3x3x16x32.Slices ![2, 1, 0, 0] S1x1x16x32
  slices_S128x128x16_o2_2_0_S126x126x16 : S128x128x16.Slices ![2, 2, 0] S126x126x16
  slices_S3x3x16x32_o2_2_0_0_S1x1x16x32 : S3x3x16x32.Slices ![2, 2, 0, 0] S1x1x16x32
  inb_S1x126x126x32_S1x126x126x32_0_0_0_0 : ∀ a, (![0, 0, 0, 0] : Fin 4 → Nat) a + S1x126x126x32.size a ≤ S1x126x126x32.size a
  h_S1x126x126x32 : 0 < S1x126x126x32.numel
  shapeCasts_S1x126x126x32_S126x126x32 : S1x126x126x32.ShapeCasts S126x126x32
  shapeCasts_S126x126x32_S1x126x126x32 : S126x126x32.ShapeCasts S1x126x126x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x16.size a ≤ S16x128x128x16.size a
  hwx0_0 : ∀ i : grid0.Coords, EltTy.bits .f32 = 32 ∨ (Rect.block (s := S16x128x128x16) S1x128x128x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x16x32.size a ≤ S3x3x16x32.size a
  hwx0_1 : ∀ i : grid0.Coords, EltTy.bits .f32 = 32 ∨ (Rect.block (s := S3x3x16x32) S3x3x16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x126x126x32.size a ≤ S16x126x126x32.size a
  hwx0_2 : ∀ i : grid0.Coords, EltTy.bits .f32 = 32 ∨ (Rect.block (s := S16x126x126x32) S1x126x126x32.size (cc0_transform_2 i) (hinb0_2 i)).WholeWords (EltTy.packing .f32)

variable [Facts₀]

abbrev win0_0 : Pipeline.Window sig grid0 :=
  Pipeline.Window.ofSpec (Memref.whole main_arg0) S1x128x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3x16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x126x126x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x16 : Shape := ⟨4, ![16, 128, 128, 16]⟩
abbrev S3x3x16x32 : Shape := ⟨4, ![3, 3, 16, 32]⟩
abbrev S_ : Shape := ⟨0, ![]⟩
abbrev S16x126x126x32 : Shape := ⟨4, ![16, 126, 126, 32]⟩
abbrev S16x126x126x16 : Shape := ⟨4, ![16, 126, 126, 16]⟩
abbrev S16x126x126x16x1 : Shape := ⟨5, ![16, 126, 126, 16, 1]⟩
abbrev S1x1x16x32 : Shape := ⟨4, ![1, 1, 16, 32]⟩
abbrev S16x32 : Shape := ⟨2, ![16, 32]⟩
abbrev S1x1x1x16x32 : Shape := ⟨5, ![1, 1, 1, 16, 32]⟩
abbrev S16x126x126x16x32 : Shape := ⟨5, ![16, 126, 126, 16, 32]⟩

abbrev nBuf : Space → Nat
  | .hbm => 105
  | .vmem => 0
  | .smem => 0
  | _ => 0

abbrev bufTy : (tb : Table) → Fin (tcTables nBuf tb) → BufTy
  | .hbm, ⟨0, _⟩ => ⟨S16x128x128x16, .f32⟩
  | .hbm, ⟨1, _⟩ => ⟨S3x3x16x32, .f32⟩
  | .hbm, ⟨2, _⟩ => ⟨S16x128x128x16, .f32⟩
  | .hbm, ⟨3, _⟩ => ⟨S_, .f32⟩
  | .hbm, ⟨4, _⟩ => ⟨S16x126x126x32, .f32⟩
  | .hbm, ⟨5, _⟩ => ⟨S16x126x126x16, .f32⟩
  | .hbm, ⟨6, _⟩ => ⟨S16x126x126x16x1, .f32⟩
  | .hbm, ⟨7, _⟩ => ⟨S1x1x16x32, .f32⟩
  | .hbm, ⟨8, _⟩ => ⟨S16x32, .f32⟩
  | .hbm, ⟨9, _⟩ => ⟨S1x1x1x16x32, .f32⟩
  | .hbm, ⟨10, _⟩ => ⟨S16x126x126x16x32, .f32⟩
  | .hbm, ⟨11, _⟩ => ⟨S16x126x126x16x32, .f32⟩
  | .hbm, ⟨12, _⟩ => ⟨S16x126x126x16x32, .f32⟩
  | .hbm, ⟨13, _⟩ => ⟨S_, .f32⟩
  | .hbm, ⟨14, _⟩ => ⟨S16x126x126x32, .f32⟩
  | .hbm, ⟨15, _⟩ => ⟨S16x126x126x32, .f32⟩
  | .hbm, ⟨16, _⟩ => ⟨S16x126x126x16, .f32⟩
  | .hbm, ⟨17, _⟩ => ⟨S16x126x126x16x1, .f32⟩
  | .hbm, ⟨18, _⟩ => ⟨S1x1x16x32, .f32⟩
  | .hbm, ⟨19, _⟩ => ⟨S16x32, .f32⟩
  | .hbm, ⟨20, _⟩ => ⟨S1x1x1x16x32, .f32⟩
  | .hbm, ⟨21, _⟩ => ⟨S16x126x126x16x32, .f32⟩
  | .hbm, ⟨22, _⟩ => ⟨S16x126x126x16x32, .f32⟩
  | .hbm, ⟨23, _⟩ => ⟨S16x126x126x16x32, .f32⟩
  | .hbm, ⟨24, _⟩ => ⟨S_, .f32⟩
  | .hbm, ⟨25, _⟩ => ⟨S16x126x126x32, .f32⟩
  | .hbm, ⟨26, _⟩ => ⟨S16x126x126x32, .f32⟩
  | .hbm, ⟨27, _⟩ => ⟨S16x126x126x16, .f32⟩
  | .hbm, ⟨28, _⟩ => ⟨S16x126x126x16x1, .f32⟩
  | .hbm, ⟨29, _⟩ => ⟨S1x1x16x32, .f32⟩
  | .hbm, ⟨30, _⟩ => ⟨S16x32, .f32⟩
  | .hbm, ⟨31, _⟩ => ⟨S1x1x1x16x32, .f32⟩
  | .hbm, ⟨32, _⟩ => ⟨S16x126x126x16x32, .f32⟩
  | .hbm, ⟨33, _⟩ => ⟨S16x126x126x16x32, .f32⟩
  | .hbm, ⟨34, _⟩ => ⟨S16x126x126x16x32, .f32⟩
  | .hbm, ⟨35, _⟩ => ⟨S_, .f32⟩
  | .hbm, ⟨36, _⟩ => ⟨S16x126x126x32, .f32⟩
  | .hbm, ⟨37, _⟩ => ⟨S16x126x126x32, .f32⟩
  | .hbm, ⟨38, _⟩ => ⟨S16x126x126x16, .f32⟩
  | .hbm, ⟨39, _⟩ => ⟨S16x126x126x16x1, .f32⟩
  | .hbm, ⟨40, _⟩ => ⟨S1x1x16x32, .f32⟩
  | .hbm, ⟨41, _⟩ => ⟨S16x32, .f32⟩
  | .hbm, ⟨42, _⟩ => ⟨S1x1x1x16x32, .f32⟩
  | .hbm, ⟨43, _⟩ => ⟨S16x126x126x16x32, .f32⟩
  | .hbm, ⟨44, _⟩ => ⟨S16x126x126x16x32, .f32⟩
  | .hbm, ⟨45, _⟩ => ⟨S16x126x126x16x32, .f32⟩
  | .hbm, ⟨46, _⟩ => ⟨S_, .f32⟩
  | .hbm, ⟨47, _⟩ => ⟨S16x126x126x32, .f32⟩
  | .hbm, ⟨48, _⟩ => ⟨S16x126x126x32, .f32⟩
  | .hbm, ⟨49, _⟩ => ⟨S16x126x126x16, .f32⟩
  | .hbm, ⟨50, _⟩ => ⟨S16x126x126x16x1, .f32⟩
  | .hbm, ⟨51, _⟩ => ⟨S1x1x16x32, .f32⟩
  | .hbm, ⟨52, _⟩ => ⟨S16x32, .f32⟩
  | .hbm, ⟨53, _⟩ => ⟨S1x1x1x16x32, .f32⟩
  | .hbm, ⟨54, _⟩ => ⟨S16x126x126x16x32, .f32⟩
  | .hbm, ⟨55, _⟩ => ⟨S16x126x126x16x32, .f32⟩
  | .hbm, ⟨56, _⟩ => ⟨S16x126x126x16x32, .f32⟩
  | .hbm, ⟨57, _⟩ => ⟨S_, .f32⟩
  | .hbm, ⟨58, _⟩ => ⟨S16x126x126x32, .f32⟩
  | .hbm, ⟨59, _⟩ => ⟨S16x126x126x32, .f32⟩
  | .hbm, ⟨60, _⟩ => ⟨S16x126x126x16, .f32⟩
  | .hbm, ⟨61, _⟩ => ⟨S16x126x126x16x1, .f32⟩
  | .hbm, ⟨62, _⟩ => ⟨S1x1x16x32, .f32⟩
  | .hbm, ⟨63, _⟩ => ⟨S16x32, .f32⟩
  | .hbm, ⟨64, _⟩ => ⟨S1x1x1x16x32, .f32⟩
  | .hbm, ⟨65, _⟩ => ⟨S16x126x126x16x32, .f32⟩
  | .hbm, ⟨66, _⟩ => ⟨S16x126x126x16x32, .f32⟩
  | .hbm, ⟨67, _⟩ => ⟨S16x126x126x16x32, .f32⟩
  | .hbm, ⟨68, _⟩ => ⟨S_, .f32⟩
  | .hbm, ⟨69, _⟩ => ⟨S16x126x126x32, .f32⟩
  | .hbm, ⟨70, _⟩ => ⟨S16x126x126x32, .f32⟩
  | .hbm, ⟨71, _⟩ => ⟨S16x126x126x16, .f32⟩
  | .hbm, ⟨72, _⟩ => ⟨S16x126x126x16x1, .f32⟩
  | .hbm, ⟨73, _⟩ => ⟨S1x1x16x32, .f32⟩
  | .hbm, ⟨74, _⟩ => ⟨S16x32, .f32⟩
  | .hbm, ⟨75, _⟩ => ⟨S1x1x1x16x32, .f32⟩
  | .hbm, ⟨76, _⟩ => ⟨S16x126x126x16x32, .f32⟩
  | .hbm, ⟨77, _⟩ => ⟨S16x126x126x16x32, .f32⟩
  | .hbm, ⟨78, _⟩ => ⟨S16x126x126x16x32, .f32⟩
  | .hbm, ⟨79, _⟩ => ⟨S_, .f32⟩
  | .hbm, ⟨80, _⟩ => ⟨S16x126x126x32, .f32⟩
  | .hbm, ⟨81, _⟩ => ⟨S16x126x126x32, .f32⟩
  | .hbm, ⟨82, _⟩ => ⟨S16x126x126x16, .f32⟩
  | .hbm, ⟨83, _⟩ => ⟨S16x126x126x16x1, .f32⟩
  | .hbm, ⟨84, _⟩ => ⟨S1x1x16x32, .f32⟩
  | .hbm, ⟨85, _⟩ => ⟨S16x32, .f32⟩
  | .hbm, ⟨86, _⟩ => ⟨S1x1x1x16x32, .f32⟩
  | .hbm, ⟨87, _⟩ => ⟨S16x126x126x16x32, .f32⟩
  | .hbm, ⟨88, _⟩ => ⟨S16x126x126x16x32, .f32⟩
  | .hbm, ⟨89, _⟩ => ⟨S16x126x126x16x32, .f32⟩
  | .hbm, ⟨90, _⟩ => ⟨S_, .f32⟩
  | .hbm, ⟨91, _⟩ => ⟨S16x126x126x32, .f32⟩
  | .hbm, ⟨92, _⟩ => ⟨S16x126x126x32, .f32⟩
  | .hbm, ⟨93, _⟩ => ⟨S16x126x126x16, .f32⟩
  | .hbm, ⟨94, _⟩ => ⟨S16x126x126x16x1, .f32⟩
  | .hbm, ⟨95, _⟩ => ⟨S1x1x16x32, .f32⟩
  | .hbm, ⟨96, _⟩ => ⟨S16x32, .f32⟩
  | .hbm, ⟨97, _⟩ => ⟨S1x1x1x16x32, .f32⟩
  | .hbm, ⟨98, _⟩ => ⟨S16x126x126x16x32, .f32⟩
  | .hbm, ⟨99, _⟩ => ⟨S16x126x126x16x32, .f32⟩
  | .hbm, ⟨100, _⟩ => ⟨S16x126x126x16x32, .f32⟩
  | .hbm, ⟨101, _⟩ => ⟨S_, .f32⟩
  | .hbm, ⟨102, _⟩ => ⟨S16x126x126x32, .f32⟩
  | .hbm, ⟨103, _⟩ => ⟨S16x126x126x32, .f32⟩
  | .hbm, ⟨104, _⟩ => ⟨S16x126x126x32, .f32⟩
  | _, _ => ⟨S16x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_5 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_7 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_8 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]

class Facts₀ : Prop where
  bcast_S_S16x126x126x32 : S_.BroadcastsInDim S16x126x126x32 (![] : Fin 0 → Fin S16x126x126x32.rank)
  slices_S16x128x128x16_S16x126x126x16_0_0_0_0 : S16x128x128x16.Slices ![0, 0, 0, 0] S16x126x126x16
  bcast_S16x126x126x16_S16x126x126x16x1_0_1_2_3 : S16x126x126x16.BroadcastsInDim S16x126x126x16x1 (![0, 1, 2, 3] : Fin 4 → Fin S16x126x126x16x1.rank)
  slices_S3x3x16x32_S1x1x16x32_0_0_0_0 : S3x3x16x32.Slices ![0, 0, 0, 0] S1x1x16x32
  shapeCasts_S1x1x16x32_S16x32 : S1x1x16x32.ShapeCasts S16x32
  bcast_S16x32_S1x1x1x16x32_3_4 : S16x32.BroadcastsInDim S1x1x1x16x32 (![3, 4] : Fin 2 → Fin S1x1x1x16x32.rank)
  bcast_S16x126x126x16x1_S16x126x126x16x32_0_1_2_3_4 : S16x126x126x16x1.BroadcastsInDim S16x126x126x16x32 (![0, 1, 2, 3, 4] : Fin 5 → Fin S16x126x126x16x32.rank)
  bcast_S1x1x1x16x32_S16x126x126x16x32_0_1_2_3_4 : S1x1x1x16x32.BroadcastsInDim S16x126x126x16x32 (![0, 1, 2, 3, 4] : Fin 5 → Fin S16x126x126x16x32.rank)
  reducesTo_S16x126x126x16x32_S16x126x126x32_d3 : S16x126x126x16x32.ReducesTo [3] S16x126x126x32
  h_S_ : 0 < S_.numel
  slices_S16x128x128x16_S16x126x126x16_0_0_1_0 : S16x128x128x16.Slices ![0, 0, 1, 0] S16x126x126x16
  slices_S3x3x16x32_S1x1x16x32_0_1_0_0 : S3x3x16x32.Slices ![0, 1, 0, 0] S1x1x16x32
  slices_S16x128x128x16_S16x126x126x16_0_0_2_0 : S16x128x128x16.Slices ![0, 0, 2, 0] S16x126x126x16
  slices_S3x3x16x32_S1x1x16x32_0_2_0_0 : S3x3x16x32.Slices ![0, 2, 0, 0] S1x1x16x32
  slices_S16x128x128x16_S16x126x126x16_0_1_0_0 : S16x128x128x16.Slices ![0, 1, 0, 0] S16x126x126x16
  slices_S3x3x16x32_S1x1x16x32_1_0_0_0 : S3x3x16x32.Slices ![1, 0, 0, 0] S1x1x16x32
  slices_S16x128x128x16_S16x126x126x16_0_1_1_0 : S16x128x128x16.Slices ![0, 1, 1, 0] S16x126x126x16
  slices_S3x3x16x32_S1x1x16x32_1_1_0_0 : S3x3x16x32.Slices ![1, 1, 0, 0] S1x1x16x32
  slices_S16x128x128x16_S16x126x126x16_0_1_2_0 : S16x128x128x16.Slices ![0, 1, 2, 0] S16x126x126x16
  slices_S3x3x16x32_S1x1x16x32_1_2_0_0 : S3x3x16x32.Slices ![1, 2, 0, 0] S1x1x16x32
  slices_S16x128x128x16_S16x126x126x16_0_2_0_0 : S16x128x128x16.Slices ![0, 2, 0, 0] S16x126x126x16
  slices_S3x3x16x32_S1x1x16x32_2_0_0_0 : S3x3x16x32.Slices ![2, 0, 0, 0] S1x1x16x32
  slices_S16x128x128x16_S16x126x126x16_0_2_1_0 : S16x128x128x16.Slices ![0, 2, 1, 0] S16x126x126x16
  slices_S3x3x16x32_S1x1x16x32_2_1_0_0 : S3x3x16x32.Slices ![2, 1, 0, 0] S1x1x16x32
  slices_S16x128x128x16_S16x126x126x16_0_2_2_0 : S16x128x128x16.Slices ![0, 2, 2, 0] S16x126x126x16
  slices_S3x3x16x32_S1x1x16x32_2_2_0_0 : S3x3x16x32.Slices ![2, 2, 0, 0] S1x1x16x32

variable [Facts₀]

class Facts : Prop extends Facts₀ where

variable [Facts]
-- ==== Proof.LibWindowLayout.lean ====
/-
  Small arrays re-laid: what a slice, a reshape or a broadcast of the shapes met in a sliding-window body reads at an index
  given by its coordinates. Each statement says which ONE entry of the operand an entry of the result is; each proof is
  the library's general reading of the operation with the arithmetic of the coordinates done axis by axis.
  The shapes: a window [m0, m1, n2] cut out of an [n0, n1, n2] array at a row and a column offset; one channel
  [n0, n1, 1] of an [n0, n1, n2] array; one [1, 1, n2, n3] cell of an [n0, n1, n2, n3] table; one row [1, n1] of an
  [n0, n1] table; unit axes dropped from or added to such pieces; and a column [a, b, 1] or a row [1, 1, c] repeated
  to [a, b, c].
-/
import Idealize.ShloMosaic.Lib.Pipeline.Value
import Idealize.ShloMosaic.Lib.ValueIdx
import Idealize.ShloMosaic.Lib.ValueLayout

namespace Cert.Erosion.Layout

open Idealize.ShloMosaic Idealize.ShloMosaic.ValueIdx

variable {α : Type}

/-! ## Slices -/

/-- A window of a rank-3 array cut at row offset `o0` and column offset `o1`, all of the last axis kept: entry
    `(a, b, e)` of the window is entry `(o0 + a, o1 + b, e)` of the array. -/
theorem slice3_window_eq {n0 n1 n2 m0 m1 : Nat} (o0 o1 : Nat) (X : (⟨3, ![n0, n1, n2]⟩ : Shape).Idx → α)
    (h : (⟨3, ![n0, n1, n2]⟩ : Shape).Slices ![o0, o1, 0] ⟨3, ![m0, m1, n2]⟩) (a : Fin m0) (b : Fin m1) (e : Fin n2) :
    extractStridedSlice ⟨3, ![m0, m1, n2]⟩ ![o0, o1, 0] X h (ix3 a b e)
      = X (ix3 ⟨o0 + a.val, Nat.lt_of_lt_of_le (Nat.add_lt_add_left a.isLt o0) (h.2 0)⟩
            ⟨o1 + b.val, Nat.lt_of_lt_of_le (Nat.add_lt_add_left b.isLt o1) (h.2 1)⟩ e) :=
  extractStridedSlice_apply _ _ _ _ _ (fun ax => by
    match ax with
    | ⟨0, _⟩ => rfl
    | ⟨1, _⟩ => rfl
    | ⟨2, _⟩ => exact (Nat.zero_add _).symm)

/-- One channel of a rank-3 array, kept as a last axis of extent one: entry `(a, b, u)` is entry `(a, b, o)`. -/
theorem slice3_channel_eq {n0 n1 n2 : Nat} (o : Nat) (X : (⟨3, ![n0, n1, n2]⟩ : Shape).Idx → α)
    (h : (⟨3, ![n0, n1, n2]⟩ : Shape).Slices ![0, 0, o] ⟨3, ![n0, n1, 1]⟩) (a : Fin n0) (b : Fin n1) (u : Fin 1) :
    extractStridedSlice ⟨3, ![n0, n1, 1]⟩ ![0, 0, o] X h (ix3 a b u)
      = X (ix3 a b ⟨o, Nat.lt_of_lt_of_le (Nat.lt_succ_self o) (h.2 2)⟩) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show o = o + u.val
      rw [hu, Nat.add_zero])

/-- One cell of a rank-4 table along its two leading axes, kept as two axes of extent one: entry `(u, v, c, f)` is entry
    `(o0, o1, c, f)`. -/
theorem slice4_cell_eq {n0 n1 n2 n3 : Nat} (o0 o1 : Nat) (X : (⟨4, ![n0, n1, n2, n3]⟩ : Shape).Idx → α)
    (h : (⟨4, ![n0, n1, n2, n3]⟩ : Shape).Slices ![o0, o1, 0, 0] ⟨4, ![1, 1, n2, n3]⟩) (u v : Fin 1) (c : Fin n2) (f : Fin n3) :
    extractStridedSlice ⟨4, ![1, 1, n2, n3]⟩ ![o0, o1, 0, 0] X h (ix4 u v c f)
      = X (ix4 ⟨o0, Nat.lt_of_lt_of_le (Nat.lt_succ_self o0) (h.2 0)⟩ ⟨o1, Nat.lt_of_lt_of_le (Nat.lt_succ_self o1) (h.2 1)⟩ c f) :=
  extractStridedSlice_apply _ _ _ _ _ (fun ax => by
    match ax with
    | ⟨0, _⟩ =>
      have hu : u.val = 0 := by omega
      show o0 = o0 + u.val
      rw [hu, Nat.add_zero]
    | ⟨1, _⟩ =>
      have hv : v.val = 0 := by omega
      show o1 = o1 + v.val
      rw [hv, Nat.add_zero]
    | ⟨2, _⟩ => exact (Nat.zero_add _).symm
    | ⟨3, _⟩ => exact (Nat.zero_add _).symm)

/-- One row of a table, kept as a leading axis of extent one: entry `(u, f)` is entry `(o, f)`. -/
theorem slice2_row_eq {n0 n1 : Nat} (o : Nat) (X : (⟨2, ![n0, n1]⟩ : Shape).Idx → α)
    (h : (⟨2, ![n0, n1]⟩ : Shape).Slices ![o, 0] ⟨2, ![1, n1]⟩) (u : Fin 1) (f : Fin n1) :
    extractStridedSlice ⟨2, ![1, n1]⟩ ![o, 0] X h (ix2 u f)
      = X (ix2 ⟨o, Nat.lt_of_lt_of_le (Nat.lt_succ_self o) (h.2 0)⟩ f) :=
  extractStridedSlice_apply _ _ _ _ _ (fun ax => by
    match ax with
    | ⟨0, _⟩ =>
      have hu : u.val = 0 := by omega
      show o = o + u.val
      rw [hu, Nat.add_zero]
    | ⟨1, _⟩ => exact (Nat.zero_add _).symm)

/-! ## Unit axes dropped and added -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A length-`a` vector cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-! ## Broadcasts -/

/-- An `[a, b, 1]` column repeated along a new last extent `c`: entry `(i, j, k)` is the column's `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` row repeated over `a` rows and `b` columns: entry `(i, j, k)` is the row's `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Erosion.Layout
-- ==== Proof.Spec.lean ====
/-
  Grey-scale erosion as a function of the two arrays, and the one law that joins the two programs.

  For an image `x` of shape [16, 128, 128, 16] (batch, row, column, channel) and a structuring element `w` of shape
  [3, 3, 16, 32] (row offset, column offset, channel, filter), the eroded image at (b, p, q, f) is the least of the
  3 · 3 · 16 = 144 differences `x(b, p + di, q + dj, c) − w(di, dj, c, f)`. One program takes the running minimum of
  those differences, from +∞, offset by offset and channel by channel; the other negates the image, takes per offset
  the maximum over the channels of `(−x) + w`, the running maximum of those nine from −∞, and negates the result.
  Negation turns a maximum into a minimum on the extended reals, and `−((−x) + w) = x − w` whenever the two numbers
  are real (not at the infinities, where `⊤ + ⊥ = ⊥`): so the two agree on finite arrays. Everything here is stated
  over lists of offsets and channels and proved by induction on a list; nothing is enumerated.
-/
import Idealize.ShloMosaic.PureOps.Ideal
import Idealize.ShloMosaic.Lib.ValueIdx

noncomputable section

namespace Cert.Erosion

open Idealize.ShloMosaic Idealize.ShloMosaic.ValueIdx

/-! ## Negation, maxima and minima on the extended reals -/

/-- Negation reverses the order, so it sends a maximum to the minimum of the negations. -/
theorem neg_max_eq (a b : EReal) : -(max a b) = min (-a) (-b) := by
  rcases le_total a b with h | h
  · rw [max_eq_right h, min_eq_right (EReal.neg_le_neg_iff.2 h)]
  · rw [max_eq_left h, min_eq_left (EReal.neg_le_neg_iff.2 h)]

/-- A running minimum started at `a` is the minimum of `a` and the running minimum started at +∞. -/
theorem foldl_min_from {ι : Type} (l : List ι) (t : ι → EReal) (a : EReal) :
    l.foldl (fun r k => min r (t k)) a = min a (l.foldl (fun r k => min r (t k)) ⊤) := by
  induction l generalizing a with
  | nil => simp only [List.foldl_nil, min_top_right]
  | cons k l ih =>
    simp only [List.foldl_cons]
    rw [ih (min a (t k)), ih (min ⊤ (t k)), min_top_left, min_assoc]

/-- Negation carries a fold to the fold of the negated steps, from the negated start. -/
theorem neg_foldl {ι : Type} (l : List ι) (g g' : EReal → ι → EReal) (H : ∀ a k, -(g a k) = g' (-a) k) (a : EReal) :
    -(l.foldl g a) = l.foldl g' (-a) := by
  induction l generalizing a with
  | nil => rfl
  | cons k l ih => simp only [List.foldl_cons]; rw [ih, H]

/-- The difference of two real numbers is minus the sum of the negated first and the second. -/
theorem neg_neg_add_coe (a b : ℝ) : -(-(a : EReal) + (b : EReal)) = (a : EReal) - (b : EReal) := by
  rw [← EReal.coe_neg, ← EReal.coe_add, ← EReal.coe_neg, ← EReal.coe_sub]
  congr 1; ring

/-! ## The window: three row offsets, three column offsets, sixteen channels -/

/-- The offsets of the 3 × 3 window along one axis, in the order both programs visit them. -/
def offs : List (Fin 3) := [0, 1, 2]

/-- The sixteen channels, in order. -/
def chans : List (Fin 16) := [0, 1, 2, 3, 4, 5, 6, 7, 8, 9, 10, 11, 12, 13, 14, 15]

theorem chans_eq_finRange : chans = List.finRange 16 := by decide

/-- The running minimum of a family of 144 numbers indexed by (row offset, column offset, channel), from +∞, in the order
    row offset, column offset, channel. -/
def erode (t : Fin 3 → Fin 3 → Fin 16 → EReal) : EReal :=
  offs.foldl (fun a di => offs.foldl (fun a dj => chans.foldl (fun r c => min r (t di dj c)) a) a) ⊤

/-- The running maximum over the nine offsets, from −∞, of the maximum over the channels (from −∞) of such a family. -/
def dilate (u : Fin 3 → Fin 3 → Fin 16 → EReal) : EReal :=
  offs.foldl (fun a di => offs.foldl (fun a dj => max a (chans.foldl (fun r c => max r (u di dj c)) ⊥)) a) ⊥

/-- THE LAW: minus the dilation of a family is the erosion of the negated family. -/
theorem neg_dilate (t u : Fin 3 → Fin 3 → Fin 16 → EReal) (h : ∀ di dj c, -(u di dj c) = t di dj c) :
    -(dilate u) = erode t := by
  unfold dilate erode
  rw [neg_foldl offs _ (fun a di => offs.foldl (fun a dj => chans.foldl (fun r c => min r (t di dj c)) a) a) ?_ ⊥, EReal.neg_bot]
  intro a di
  refine neg_foldl offs _ _ (fun a dj => ?_) a
  rw [neg_max_eq, neg_foldl chans _ (fun r c => min r (t di dj c)) (fun r c => by rw [neg_max_eq, h]) ⊥, EReal.neg_bot]
  exact (foldl_min_from chans _ (-a)).symm

/-! ## The eroded image -/

/-- Row (or column) `p` of the output, moved by the window offset `d`, as a row (column) of the image. -/
def shift (d : Fin 3) (p : Fin 126) : Fin 128 := ⟨d.val + p.val, by omega⟩

theorem shift_val (d : Fin 3) (p : Fin 126) : (shift d p).val = d.val + p.val := rfl

/-- Two rows with the same number are moved to rows with the same number. -/
theorem shift_val_congr (d : Fin 3) (a b : Fin 126) (h : a.val = b.val) : (shift d a).val = (shift d b).val := by
  rw [shift_val, shift_val, h]

/-- The eroded image at (b, p, q, f): the least of `x(b, p + di, q + dj, c) − w(di, dj, c, f)` over the window and the
    channels, as a running minimum from +∞. -/
def erosionAt (x : (⟨4, ![16, 128, 128, 16]⟩ : Shape).Idx → EReal) (w : (⟨4, ![3, 3, 16, 32]⟩ : Shape).Idx → EReal)
    (b : Fin 16) (p q : Fin 126) (f : Fin 32) : EReal :=
  erode fun di dj c => x (ix4 b (shift di p) (shift dj q) c) - w (ix4 di dj c f)

/-- The eroded image as an array of shape [16, 126, 126, 32]. -/
def erosion (x : (⟨4, ![16, 128, 128, 16]⟩ : Shape).Idx → EReal) (w : (⟨4, ![3, 3, 16, 32]⟩ : Shape).Idx → EReal) :
    (⟨4, ![16, 126, 126, 32]⟩ : Shape).Idx → EReal :=
  fun j => erosionAt x w (j 0) (j 1) (j 2) (j 3)

theorem erosion_ix4 (x : (⟨4, ![16, 128, 128, 16]⟩ : Shape).Idx → EReal) (w : (⟨4, ![3, 3, 16, 32]⟩ : Shape).Idx → EReal)
    (b : Fin 16) (p q : Fin 126) (f : Fin 32) : erosion x w (ix4 b p q f) = erosionAt x w b p q f := rfl

/-- The eroded image at an index, written over the index's coordinates. -/
theorem erosion_apply (x : (⟨4, ![16, 128, 128, 16]⟩ : Shape).Idx → EReal) (w : (⟨4, ![3, 3, 16, 32]⟩ : Shape).Idx → EReal)
    (k : (⟨4, ![16, 126, 126, 32]⟩ : Shape).Idx) :
    erosion x w k = erode fun di dj c => x (ix4 (k 0) (shift di (k 1)) (shift dj (k 2)) c) - w (ix4 di dj c (k 3)) := rfl

/-- On arrays of real numbers, the eroded image is minus the dilation of the negated image:
    minus the running maximum over the window of the channel maximum of `(−x) + w`. -/
theorem erosionAt_eq_neg_dilate (x : (⟨4, ![16, 128, 128, 16]⟩ : Shape).Idx → EReal) (w : (⟨4, ![3, 3, 16, 32]⟩ : Shape).Idx → EReal)
    (hx : ∀ i, ∃ r : ℝ, x i = (r : EReal)) (hw : ∀ i, ∃ r : ℝ, w i = (r : EReal))
    (b : Fin 16) (p q : Fin 126) (f : Fin 32) :
    -(dilate fun di dj c => -(x (ix4 b (shift di p) (shift dj q) c)) + w (ix4 di dj c f)) = erosionAt x w b p q f := by
  refine neg_dilate _ _ fun di dj c => ?_
  obtain ⟨r, hr⟩ := hx (ix4 b (shift di p) (shift dj q) c)
  obtain ⟨s, hs⟩ := hw (ix4 di dj c f)
  rw [hr, hs]
  exact neg_neg_add_coe r s

end Cert.Erosion

end
-- ==== Proof.KernelBody.lean ====
/-
  The kernel's body, read at one entry of the block it stores.

  The body loads one image `x0` of shape [1, 128, 128, 16] and the whole structuring element `x1` of shape [3, 3, 16, 32],
  starts an accumulator of shape [126, 126, 32] at +∞, and for each window offset (di, dj) and each channel c, in that
  order, replaces the accumulator by its pointwise minimum with `xs(·, ·, c) − wij(c, ·)`, where `xs` is the window of the
  image at offset (di, dj) and `wij` the [16, 32] cell of the structuring element; the column `xs(·, ·, c)` is repeated
  along the filter axis and the row `wij(c, ·)` over all pixels before they are subtracted. Each of those operations reads,
  at an index, its operands at one index each; followed from the stored value back to the loads, entry (u, p, q, f) of the
  stored block is the running minimum, from +∞, of `x0(0, di + p, dj + q, c) − x1(di, dj, c, f)` in the order (di, dj, c):
  the function `erode` of the specification.
-/
import proofs.«161054_j62861141344689_1_alg».proof.Proof.Gen.KernelIdeal.Frame
import proofs.«161054_j62861141344689_1_alg».proof.Proof.LibWindowLayout
import proofs.«161054_j62861141344689_1_alg».proof.Proof.Spec
import Idealize.ShloMosaic.Lib.ValueIdx
import Idealize.ShloMosaic.Lib.ValueLayout
import Idealize.ShloMosaic.Lib.Pipeline.Value

noncomputable section

namespace Cert.Erosion.KernelBody

open Idealize.ShloMosaic Idealize.ShloMosaic.ValueIdx Cert.KernelIdeal Cert.KernelIdeal.Gen Cert.Erosion Cert.Erosion.Layout

/-- The word the accumulator starts from denotes +∞. -/
theorem start_word : (Scalar.ofBits .f32 0x7F800000#32 : Ideal .f32) = (⊤ : EReal) := by
  show Ideal.ofBits .f32 0x7F800000#32 = ⊤
  simp [Ideal.ofBits, Ideal.ieee]

/-- The offsets of a whole-buffer access are all zero. -/
theorem zero_offsets : (![0, 0, 0, 0] : Fin 4 → Nat) = fun _ => 0 := funext fun a => by fin_cases a <;> rfl

set_option maxHeartbeats 4000000 in
set_option maxRecDepth 65536 in
/-- Entry `(u, p, q, f)` of the block the body stores is the erosion's running minimum over the window and the channels
    of the loaded image and structuring element. -/
theorem stored_apply (x0 : Vec Ideal S1x128x128x16 .f32) (x1 : Vec Ideal S3x3x16x32 .f32) (u : Fin 1) (p q : Fin 126) (f : Fin 32) :
    out0_2 x0 x1 (ix4 u p q f)
      = erode fun di dj c => x0 (ix4 (0 : Fin 1) (shift di p) (shift dj q) c) - x1 (ix4 di dj c f) := by
  unfold out0_2
  rw [View.canon_unit_zero zero_offsets]
  simp only [View.ld_unit_zero (S := S1x128x128x16) zero_offsets, View.ld_unit_zero (S := S3x3x16x32) zero_offsets]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80,
    minimumf_apply, subf_apply, broadcast_apply, start_word,
    shapeCast_abc_1abc_apply, shapeCast_1abc_abc_apply, shapeCast_1a_a_apply,
    shapeCast_ab_ab1_apply, shapeCast_ab1_ab_apply, shapeCast_a_11a_apply, shapeCast_11ab_ab_apply,
    slice3_window_eq, slice3_channel_eq, slice4_cell_eq, slice2_row_eq,
    broadcastTo_ab1_abc_apply, broadcastTo_11c_abc_apply]
  simp only [erode, offs, chans, List.foldl_cons, List.foldl_nil]
  rfl

/-- The stored block as one function of its index: the same running minimum, over the index's coordinates. -/
theorem stored_fun (x0 : Vec Ideal S1x128x128x16 .f32) (x1 : Vec Ideal S3x3x16x32 .f32) :
    out0_2 x0 x1 = fun j : S1x126x126x32.Idx =>
      erode fun di dj c => x0 (ix4 (0 : Fin 1) (shift di (j 1)) (shift dj (j 2)) c) - x1 (ix4 di dj c (j 3)) := by
  funext j
  obtain ⟨u, p, q, f, rfl⟩ : ∃ (u : Fin 1) (p q : Fin 126) (f : Fin 32), j = ix4 u p q f := ⟨j 0, j 1, j 2, j 3, eq_ix4 j⟩
  exact stored_apply x0 x1 u p q f

end Cert.Erosion.KernelBody

end
-- ==== Proof.KernelRun.lean ====
/-
  From the kernel's blocks to its result array.

  The grid has one point per image of the batch. At point `t` the pipeline stages image `t` of the first argument (a block
  [1, 128, 128, 16] at block index (t, 0, 0, 0)), the whole structuring element, and writes back block (t, 0, 0, 0), of shape
  [1, 126, 126, 32], of the result. So entry (u, p, q, f) of the block written back at `t` sits at (t + u, p, q, f) of the
  result, and entry (0, a, b, e) of the staged image block is entry (t, a, b, e) of the image: by what the body stores at
  an entry (the erosion's running minimum of its loads), the block written back at `t` is block `t` of the eroded image of
  the two argument arrays. The sixteen blocks cover the result, so after the run the result array IS the eroded image.
-/
import proofs.«161054_j62861141344689_1_alg».proof.Proof.Gen.KernelIdeal.Frame
import proofs.«161054_j62861141344689_1_alg».proof.Proof.KernelBody
import proofs.«161054_j62861141344689_1_alg».proof.Proof.Spec
import Idealize.ShloMosaic.Lib.Pipeline.Value
import Idealize.ShloMosaic.Lib.ValueIdx

noncomputable section

namespace Cert.Erosion.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.Erosion

variable (m : (ℓ : Loc nD τ sig) → Buf (Elt Ideal) ℓ) (ρ : Dev nD → PrngReg)

/-- Where the three windows' blocks sit at point `t`, decided over the sixteen points: the image block and the result
    block at block index `t` along the batch axis and 0 elsewhere, the structuring element's at 0 throughout. -/
theorem where_blocks : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = 0 ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The eroded image of the two argument arrays as core `c` finds them at the region's entry. -/
abbrev eroded (c : Dev nD) : S16x126x126x32.Idx → Elt Ideal .f32 :=
  erosion (V m c main_arg0) (V m c main_arg1)

/-- Entry `x` of the image block staged at point `t` is the entry of the image at the same row, column and channel of image
    `t` of the batch. -/
theorem image_block_apply (c : Dev nD) (t : Fin cfg0.N) (x : S1x128x128x16.Idx) (k : S16x128x128x16.Idx)
    (hk0 : (k 0).val = t.val) (hk1 : (k 1).val = (x 1).val) (hk2 : (k 2).val = (x 2).val) (hk3 : (k 3).val = (x 3).val) :
    (iblk m c 0 t : Vec Ideal S1x128x128x16 .f32) x = (V m c main_arg0 : S16x128x128x16.Idx → Elt Ideal .f32) k := by
  obtain ⟨⟨e0, e1, e2, e3⟩, -, -⟩ := where_blocks t
  unfold iblk
  rw [View.read_apply]
  show V m c main_arg0 _ = V m c main_arg0 _
  congr 1
  funext a
  apply Fin.ext
  have hx0 : (x 0).val < 1 := (x 0).isLt
  match a with
  | ⟨0, _⟩ => show win0_0.index t 0 * 1 + 1 * (x 0).val = (k 0).val; rw [e0, hk0]; omega
  | ⟨1, _⟩ => show win0_0.index t 1 * 128 + 1 * (x 1).val = (k 1).val; rw [e1, hk1]; omega
  | ⟨2, _⟩ => show win0_0.index t 2 * 128 + 1 * (x 2).val = (k 2).val; rw [e2, hk2]; omega
  | ⟨3, _⟩ => show win0_0.index t 3 * 16 + 1 * (x 3).val = (k 3).val; rw [e3, hk3]; omega

/-- The structuring element's block, at every point, is the whole array. -/
theorem table_block_apply (c : Dev nD) (t : Fin cfg0.N) (x : S3x3x16x32.Idx) :
    (iblk m c 1 t : Vec Ideal S3x3x16x32 .f32) x = (V m c main_arg1 : S3x3x16x32.Idx → Elt Ideal .f32) x := by
  obtain ⟨-, ⟨e0, e1, e2, e3⟩, -⟩ := where_blocks t
  unfold iblk
  rw [View.read_apply]
  show V m c main_arg1 _ = V m c main_arg1 _
  congr 1
  funext a
  apply Fin.ext
  match a with
  | ⟨0, _⟩ => show win0_1.index t 0 * 3 + 1 * (x 0).val = (x 0).val; rw [e0]; omega
  | ⟨1, _⟩ => show win0_1.index t 1 * 3 + 1 * (x 1).val = (x 1).val; rw [e1]; omega
  | ⟨2, _⟩ => show win0_1.index t 2 * 16 + 1 * (x 2).val = (x 2).val; rw [e2]; omega
  | ⟨3, _⟩ => show win0_1.index t 3 * 32 + 1 * (x 3).val = (x 3).val; rw [e3]; omega

/-- WHAT POINT `t` WRITES BACK is block `t` of the eroded image. -/
theorem flushed_eq (c : Dev nD) (t : Fin cfg0.N) :
    (dats m 0 c).flushed 2 t = ((cfg0.win 2).blk t).view.read (Elt Ideal) (eroded m c) := by
  show (cfg0.win 2).cut (grid0.coords t) ((dats m 0 c).after 2 t) = _
  rw [after0_2]
  refine (congrArg ((cfg0.win 2).cut (grid0.coords t)) (KernelBody.stored_fun (iblk m c 0 t) (iblk m c 1 t))).trans ?_
  obtain ⟨-, -, ⟨e0, e1, e2, e3⟩⟩ := where_blocks t
  funext j
  rw [View.read_apply]
  unfold eroded
  rw [erosion_apply]
  have hj0 : (j 0).val < 1 := (j 0).isLt
  have k0 : ((((cfg0.win 2).blk t).view.emb j) 0).val = t.val := by
    show win0_2.index t 0 * 1 + 1 * (j 0).val = t.val; rw [e0]; omega
  have k1 : ((((cfg0.win 2).blk t).view.emb j) 1).val = (j 1).val := by
    show win0_2.index t 1 * 126 + 1 * (j 1).val = (j 1).val; rw [e1]; omega
  have k2 : ((((cfg0.win 2).blk t).view.emb j) 2).val = (j 2).val := by
    show win0_2.index t 2 * 126 + 1 * (j 2).val = (j 2).val; rw [e2]; omega
  have k3 : ((((cfg0.win 2).blk t).view.emb j) 3).val = (j 3).val := by
    show win0_2.index t 3 * 32 + 1 * (j 3).val = (j 3).val; rw [e3]; omega
  refine Eq.trans ?_ (cast_eq _ _).symm
  dsimp only [Pipeline.Window.cut]
  congr 1
  funext di dj ch
  refine congrArg₂ (· - ·) ?_ ?_
  · exact image_block_apply m c t _ _ k0 (shift_val_congr di _ _ k1) (shift_val_congr dj _ _ k2) rfl
  · refine (table_block_apply m c t _).trans (congrArg _ ?_)
    funext a
    apply Fin.ext
    match a with
    | ⟨0, _⟩ => rfl
    | ⟨1, _⟩ => rfl
    | ⟨2, _⟩ => rfl
    | ⟨3, _⟩ => exact k3.symm

/-- An index of the result array is in point `t`'s block iff each coordinate is in the block's range on its axis. -/
theorem mem_blk (t : Fin cfg0.N) (i : S16x126x126x32.Idx) :
    i ∈ ((cfg0.win 2).blk t).view.set ↔ ∀ a : Fin 4, win0_2.index t a * S1x126x126x32.size a ≤ (i a).val ∧ (i a).val < win0_2.index t a * S1x126x126x32.size a + S1x126x126x32.size a := by
  show i ∈ ((View.whole main_v0).slice (win0_2.rect t)).set ↔ _
  rw [View.set_slice_whole, Rect.mem_set_unit]
  exact Iff.rfl

/-- Every index of the result array is in the block of the point that is its batch coordinate. -/
theorem covered (i : S16x126x126x32.Idx) : ∃ t : Fin cfg0.N, (cfg0.win 2).flush t = true ∧ i ∈ ((cfg0.win 2).blk t).view.set := by
  have hi0 : (i 0).val < 16 := (i 0).isLt
  have hi1 : (i 1).val < 126 := (i 1).isLt
  have hi2 : (i 2).val < 126 := (i 2).isLt
  have hi3 : (i 3).val < 32 := (i 3).isLt
  have hN : grid0.N = 16 := N_0
  let t : Fin cfg0.N := ⟨(i 0).val, by show (i 0).val < grid0.N; omega⟩
  obtain ⟨-, -, ⟨e0, e1, e2, e3⟩⟩ := where_blocks t
  refine ⟨t, flush0_2 t, ?_⟩
  rw [mem_blk]
  intro a
  match a with
  | ⟨0, _⟩ => show win0_2.index t 0 * 1 ≤ (i 0).val ∧ (i 0).val < win0_2.index t 0 * 1 + 1; rw [e0]; show (i 0).val * 1 ≤ (i 0).val ∧ (i 0).val < (i 0).val * 1 + 1; omega
  | ⟨1, _⟩ => show win0_2.index t 1 * 126 ≤ (i 1).val ∧ (i 1).val < win0_2.index t 1 * 126 + 126; rw [e1]; omega
  | ⟨2, _⟩ => show win0_2.index t 2 * 126 ≤ (i 2).val ∧ (i 2).val < win0_2.index t 2 * 126 + 126; rw [e2]; omega
  | ⟨3, _⟩ => show win0_2.index t 3 * 32 ≤ (i 3).val ∧ (i 3).val < win0_2.index t 3 * 32 + 32; rw [e3]; omega

/-- THE RESULT ARRAY after the run is the eroded image of the two arguments. -/
theorem final (c : Dev nD) : (dats m 0 c).arrAt 2 cfg0.N = eroded m c :=
  (dats m 0 c).arrAt_eq_of_cover 2 (eroded m c) (fun t _ => flushed_eq m c t) covered

/-- The run, read: every weakly fair execution ends with the result array at the eroded image of the argument arrays, and
    the argument arrays as they were. -/
theorem run : θ_run defs (onTc (τ := τ) (main (F := Ideal))) ⟨m, fun _ => 0, ρ⟩ fun r => ∀ c : Dev nD,
      r.2.mem ((c : Thread nD τ).loc main_v0) = erosion (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Erosion.KernelRun

end
-- ==== Proof.LibHostWindowLayout.lean ====
/-
  The host program's re-laid arrays read at an index given by coordinates: a window of a rank-4 image cut at a row and a
  column offset; a trailing unit axis added to a rank-4 array; a [c, f] table placed on the last two axes of a
  [1, 1, 1, c, f] array; a trailing unit axis and three leading unit axes repeated to a full rank-5 shape; and, for a
  maximum taken over axis 3 of a rank-5 array, the index of the output with the channel put back in its place.
-/
import Idealize.ShloMosaic.Lib.Pipeline.Value
import Idealize.ShloMosaic.Lib.ValueIdx
import Idealize.ShloMosaic.Lib.ValueLayout
import Idealize.ShloMosaic.PureOps.Reduce

namespace Cert.Erosion.HostLayout

open Idealize.ShloMosaic Idealize.ShloMosaic.ValueIdx

variable {α : Type}

/-- A window of a rank-4 array cut at offset `o1` on axis 1 and `o2` on axis 2, the first and last axes kept whole: entry
    `(a, b, c, e)` of the window is entry `(a, o1 + b, o2 + c, e)` of the array. -/
theorem slice4_window_eq {n0 n1 n2 n3 m1 m2 : Nat} (o1 o2 : Nat) (X : (⟨4, ![n0, n1, n2, n3]⟩ : Shape).Idx → α)
    (h : (⟨4, ![n0, n1, n2, n3]⟩ : Shape).Slices ![0, o1, o2, 0] ⟨4, ![n0, m1, m2, n3]⟩)
    (a : Fin n0) (b : Fin m1) (c : Fin m2) (e : Fin n3) :
    extractStridedSlice ⟨4, ![n0, m1, m2, n3]⟩ ![0, o1, o2, 0] X h (ix4 a b c e)
      = X (ix4 a ⟨o1 + b.val, Nat.lt_of_lt_of_le (Nat.add_lt_add_left b.isLt o1) (h.2 1)⟩
            ⟨o2 + c.val, Nat.lt_of_lt_of_le (Nat.add_lt_add_left c.isLt o2) (h.2 2)⟩ e) :=
  extractStridedSlice_apply _ _ _ _ _ (fun ax => by
    match ax with
    | ⟨0, _⟩ => exact (Nat.zero_add _).symm
    | ⟨1, _⟩ => rfl
    | ⟨2, _⟩ => rfl
    | ⟨3, _⟩ => exact (Nat.zero_add _).symm)

/-- A rank-4 array given a trailing axis of extent one: entry `(i, j, k, l, u)` is entry `(i, j, k, l)`. -/
theorem bcast_abcd_abcd1_apply {a b c d : ℕ} (v : (⟨4, ![a, b, c, d]⟩ : Shape).Idx → α)
    (h : (⟨4, ![a, b, c, d]⟩ : Shape).BroadcastsInDim ⟨5, ![a, b, c, d, 1]⟩ ![0, 1, 2, 3])
    (i : Fin a) (j : Fin b) (k : Fin c) (l : Fin d) (u : Fin 1) :
    broadcastInDim ⟨5, ![a, b, c, d, 1]⟩ ![0, 1, 2, 3] h v (ix5 i j k l u) = v (ix4 i j k l) := by
  refine broadcastInDim_apply _ h v (ix5 i j k l u) (ix4 i j k l) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[c, f]` table placed on the last two axes of a `[1, 1, 1, c, f]` array: entry `(u, v, w, k, l)` is entry `(k, l)`. -/
theorem bcast_cf_111cf_apply {c f : ℕ} (x : (⟨2, ![c, f]⟩ : Shape).Idx → α)
    (h : (⟨2, ![c, f]⟩ : Shape).BroadcastsInDim ⟨5, ![1, 1, 1, c, f]⟩ ![3, 4])
    (u v w : Fin 1) (k : Fin c) (l : Fin f) :
    broadcastInDim ⟨5, ![1, 1, 1, c, f]⟩ ![3, 4] h x (ix5 u v w k l) = x (ix2 k l) := by
  refine broadcastInDim_apply _ h x (ix5 u v w k l) (ix2 k l) fun ax => ?_
  match ax with
  | ⟨0, _⟩ =>
    show k.val = if c = 1 then 0 else k.val
    split
    · have := k.isLt; omega
    · rfl
  | ⟨1, _⟩ =>
    show l.val = if f = 1 then 0 else l.val
    split
    · have := l.isLt; omega
    · rfl

/-- An `[a, b, c, d, 1]` array repeated along its last axis to extent `e`: entry `(i, j, k, l, n)` is entry `(i, j, k, l, 0)`. -/
theorem bcast_abcd1_abcde_apply {a b c d e : ℕ} (v : (⟨5, ![a, b, c, d, 1]⟩ : Shape).Idx → α)
    (h : (⟨5, ![a, b, c, d, 1]⟩ : Shape).BroadcastsInDim ⟨5, ![a, b, c, d, e]⟩ ![0, 1, 2, 3, 4])
    (i : Fin a) (j : Fin b) (k : Fin c) (l : Fin d) (n : Fin e) :
    broadcastInDim ⟨5, ![a, b, c, d, e]⟩ ![0, 1, 2, 3, 4] h v (ix5 i j k l n) = v (ix5 i j k l (0 : Fin 1)) := by
  refine broadcastInDim_apply _ h v (ix5 i j k l n) (ix5 i j k l (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl
  | ⟨4, _⟩ => rfl

/-- A `[1, 1, 1, d, e]` array repeated along its three leading axes: entry `(i, j, k, l, n)` is entry `(0, 0, 0, l, n)`. -/
theorem bcast_111de_abcde_apply {a b c d e : ℕ} (v : (⟨5, ![1, 1, 1, d, e]⟩ : Shape).Idx → α)
    (h : (⟨5, ![1, 1, 1, d, e]⟩ : Shape).BroadcastsInDim ⟨5, ![a, b, c, d, e]⟩ ![0, 1, 2, 3, 4])
    (i : Fin a) (j : Fin b) (k : Fin c) (l : Fin d) (n : Fin e) :
    broadcastInDim ⟨5, ![a, b, c, d, e]⟩ ![0, 1, 2, 3, 4] h v (ix5 i j k l n)
      = v (ix5 (0 : Fin 1) (0 : Fin 1) (0 : Fin 1) l n) := by
  refine broadcastInDim_apply _ h v (ix5 i j k l n) (ix5 (0 : Fin 1) (0 : Fin 1) (0 : Fin 1) l n) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl
  | ⟨4, _⟩ =>
    show n.val = if e = 1 then 0 else n.val
    split
    · have := n.isLt; omega
    · rfl

/-- For a reduction over axis 3 of a rank-5 array, the output index `(i, j, k, n)` with coordinate `l` put back on the
    reduced axis is `(i, j, k, l, n)`. -/
theorem lift_axis3 {a b c d e : ℕ} (h : (⟨5, ![a, b, c, d, e]⟩ : Shape).Reduces [3] (⟨4, ![a, b, c, e]⟩ : Shape))
    (i : Fin a) (j : Fin b) (k : Fin c) (n : Fin e) (l : Fin ((⟨5, ![a, b, c, d, e]⟩ : Shape).size 3)) :
    h.lift (ix4 i j k n) l = ix5 i j k (⟨l.val, l.isLt⟩ : Fin d) n := by
  funext ax; apply Fin.ext
  fin_cases ax <;> rfl

end Cert.Erosion.HostLayout
-- ==== Proof.RefBlock.lean ====
/-
  The reference's contribution of ONE window offset, read at an entry.

  For a window offset (o1, o2) the reference cuts the [16, 126, 126, 16] window of the (negated) image at that offset and
  the [16, 32] cell of the structuring element, gives the first a trailing unit axis and the second three leading ones,
  repeats both to [16, 126, 126, 16, 32], adds them, and takes the maximum over the channel axis from −∞. At (b, p, q, f)
  that is the running maximum, from −∞ and over the sixteen channels in order, of
  `nx(b, o1 + p, o2 + q, c) + w(o1, o2, c, f)`.
-/
import proofs.«161054_j62861141344689_1_alg».proof.ReferenceIdeal
import proofs.«161054_j62861141344689_1_alg».proof.Proof.Gen.ReferenceIdeal
import proofs.«161054_j62861141344689_1_alg».proof.Proof.LibHostWindowLayout
import proofs.«161054_j62861141344689_1_alg».proof.Proof.LibWindowLayout
import proofs.«161054_j62861141344689_1_alg».proof.Proof.Spec
import Idealize.ShloMosaic.Lib.ValueIdx
import Idealize.ShloMosaic.Lib.ValueLayout
import Idealize.ShloMosaic.PureOps.Reduce
import Idealize.ShloMosaic.PureOps.Ideal.Laws

noncomputable section

namespace Cert.Erosion.RefBlock

open Idealize.ShloMosaic Idealize.ShloMosaic.ValueIdx Cert.ReferenceIdeal Cert.ReferenceIdeal.Facts₀
open Cert.Erosion Cert.Erosion.Layout Cert.Erosion.HostLayout

/-- The word of negative infinity denotes the bottom of the extended reals. -/
theorem ofBits_neg_inf : Ideal.ofBits .f32 0xFF800000#32 = ⊥ := by simp [Ideal.ofBits, Ideal.ieee]

/-- A fold of a commutative, associative operation over all of `Fin n` is the left fold over the list `0, 1, …, n − 1`. -/
theorem fold_univ_eq_foldl {α : Type} (op : α → α → α) [Std.Commutative op] [Std.Associative op] (n : ℕ) (b : α) (g : Fin n → α) :
    (Finset.univ : Finset (Fin n)).fold op b g = (List.finRange n).foldl (fun r k => op r (g k)) b := by
  have hu : (Finset.univ : Finset (Fin n)) = (List.finRange n).toFinset := by
    ext k; simp
  rw [hu, Finset.fold, List.toFinset_val, (List.nodup_finRange n).dedup, Multiset.map_coe, Multiset.coe_fold_l, List.foldl_map]

theorem reduces_d3 : S16x126x126x16x32.Reduces [3] S16x126x126x32 := by decide

/-- One offset's maximum over the channels at `(b, p, q, f)`. -/
theorem offset_max_apply (nx : FVec Ideal S16x128x128x16 .f32) (w : FVec Ideal S3x3x16x32 .f32) (o1 o2 : ℕ)
    (hs : S16x128x128x16.Slices ![0, o1, o2, 0] S16x126x126x16) (hw : S3x3x16x32.Slices ![o1, o2, 0, 0] S1x1x16x32)
    (b : Fin 16) (p q : Fin 126) (f : Fin 32) :
    Host.reduce FloatOps.maximumf
        (addf
          (broadcastInDim S16x126x126x16x32 ![0, 1, 2, 3, 4] bcast_S16x126x126x16x1_S16x126x126x16x32_0_1_2_3_4
            (broadcastInDim S16x126x126x16x1 ![0, 1, 2, 3] bcast_S16x126x126x16_S16x126x126x16x1_0_1_2_3
              (extractStridedSlice S16x126x126x16 ![0, o1, o2, 0] nx hs)))
          (broadcastInDim S16x126x126x16x32 ![0, 1, 2, 3, 4] bcast_S1x1x1x16x32_S16x126x126x16x32_0_1_2_3_4
            (broadcastInDim S1x1x1x16x32 ![3, 4] bcast_S16x32_S1x1x1x16x32_3_4
              (shapeCast S16x32 (extractStridedSlice S1x1x16x32 ![o1, o2, 0, 0] w hw) shapeCasts_S1x1x16x32_S16x32))))
        (constant (F := Ideal) S_ .f32 0xFF800000#32) reducesTo_S16x126x126x16x32_S16x126x126x32_d3 h_S_ (ix4 b p q f)
      = chans.foldl (fun r c => max r
          (nx (ix4 b ⟨o1 + p.val, Nat.lt_of_lt_of_le (Nat.add_lt_add_left p.isLt o1) (hs.2 1)⟩
                ⟨o2 + q.val, Nat.lt_of_lt_of_le (Nat.add_lt_add_left q.isLt o2) (hs.2 2)⟩ c)
            + w (ix4 ⟨o1, Nat.lt_of_lt_of_le (Nat.lt_succ_self o1) (hw.2 0)⟩ ⟨o2, Nat.lt_of_lt_of_le (Nat.lt_succ_self o2) (hw.2 1)⟩ c f))) ⊥ := by
  rw [Host.reduce_eq_fold_single FloatOps.maximumf _ _ reducesTo_S16x126x126x16x32_S16x126x126x32_d3 reduces_d3 h_S_]
  rw [fold_univ_eq_foldl, chans_eq_finRange]
  show (List.finRange 16).foldl _ (Ideal.ofBits .f32 0xFF800000#32) = _
  rw [ofBits_neg_inf]
  congr 1
  funext r c
  show max r _ = max r _
  congr 1
  show addf _ _ (reduces_d3.lift (ix4 b p q f) c) = _
  rw [lift_axis3 reduces_d3 b p q f c, addf_apply, bcast_abcd1_abcde_apply, bcast_abcd_abcd1_apply, slice4_window_eq,
    bcast_111de_abcde_apply, bcast_cf_111cf_apply, shapeCast_11ab_ab_apply, slice4_cell_eq]
  rfl

/-- The same with the offsets as window offsets and the image negated on the way in: at `(b, p, q, f)`, the running maximum
    over the channels, from −∞, of `−x(b, p + di, q + dj, c) + w(di, dj, c, f)`. -/
theorem offset_term (x : FVec Ideal S16x128x128x16 .f32) (w : FVec Ideal S3x3x16x32 .f32) (di dj : Fin 3)
    (hs : S16x128x128x16.Slices ![0, di.val, dj.val, 0] S16x126x126x16) (hw : S3x3x16x32.Slices ![di.val, dj.val, 0, 0] S1x1x16x32)
    (b : Fin 16) (p q : Fin 126) (f : Fin 32) :
    Host.reduce FloatOps.maximumf
        (addf
          (broadcastInDim S16x126x126x16x32 ![0, 1, 2, 3, 4] bcast_S16x126x126x16x1_S16x126x126x16x32_0_1_2_3_4
            (broadcastInDim S16x126x126x16x1 ![0, 1, 2, 3] bcast_S16x126x126x16_S16x126x126x16x1_0_1_2_3
              (extractStridedSlice S16x126x126x16 ![0, di.val, dj.val, 0] (Host.negf x) hs)))
          (broadcastInDim S16x126x126x16x32 ![0, 1, 2, 3, 4] bcast_S1x1x1x16x32_S16x126x126x16x32_0_1_2_3_4
            (broadcastInDim S1x1x1x16x32 ![3, 4] bcast_S16x32_S1x1x1x16x32_3_4
              (shapeCast S16x32 (extractStridedSlice S1x1x16x32 ![di.val, dj.val, 0, 0] w hw) shapeCasts_S1x1x16x32_S16x32))))
        (constant (F := Ideal) S_ .f32 0xFF800000#32) reducesTo_S16x126x126x16x32_S16x126x126x32_d3 h_S_ (ix4 b p q f)
      = chans.foldl (fun r c => max r (-(x (ix4 b (shift di p) (shift dj q) c)) + w (ix4 di dj c f))) ⊥ := by
  refine (offset_max_apply (Host.negf x) w di.val dj.val hs hw b p q f).trans ?_
  congr 1

end Cert.Erosion.RefBlock

end
-- ==== Proof.RefValue.lean ====
/-
  The reference's result, read at an entry.

  The reference negates the image, and for the nine window offsets in order takes the running maximum, from −∞, of each
  offset's maximum over the channels of `(−x)(b, p + di, q + dj, c) + w(di, dj, c, f)`; its result is minus that running
  maximum. That is minus the dilation of the family `(−x) + w`, which on arrays of real numbers is the eroded image
  (the specification's law: negation turns the maxima into minima, and `−((−x) + w) = x − w` on real numbers).
  The program is read one operation at a time, as functions of two array VARIABLES: each offset's channel maximum is one
  stage (nine of them, the same reading at nine offsets), the running maximum and the final negation are pointwise.
-/
import proofs.«161054_j62861141344689_1_alg».proof.Proof.Gen.ReferenceIdeal.Run
import proofs.«161054_j62861141344689_1_alg».proof.Proof.Gen.ReferenceIdeal.Read
import proofs.«161054_j62861141344689_1_alg».proof.Proof.RefBlock
import proofs.«161054_j62861141344689_1_alg».proof.Proof.Spec
import Idealize.ShloMosaic.Lib.ValueIdx

noncomputable section

namespace Cert.Erosion.RefValue

open Idealize.ShloMosaic Idealize.ShloMosaic.ValueIdx Idealize.ShloMosaic.TcCoe Idealize.SL.Sem
open Cert.ReferenceIdeal Cert.ReferenceIdeal.Facts₀ Cert.ReferenceIdeal.Read Cert.Erosion Cert.Erosion.RefBlock

/-! ## The nine offsets' channel maxima -/

theorem stage10_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v10 (F := Ideal) x0 x1 (ix4 b p q f)
      = chans.foldl (fun r c => max r (-(x0 (ix4 b (shift 0 p) (shift 0 q) c)) + x1 (ix4 0 0 c f))) ⊥ :=
  offset_term x0 x1 0 0 slices_S16x128x128x16_S16x126x126x16_0_0_0_0 slices_S3x3x16x32_S1x1x16x32_0_0_0_0 b p q f

theorem stage20_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v20 (F := Ideal) x0 x1 (ix4 b p q f)
      = chans.foldl (fun r c => max r (-(x0 (ix4 b (shift 0 p) (shift 1 q) c)) + x1 (ix4 0 1 c f))) ⊥ :=
  offset_term x0 x1 0 1 slices_S16x128x128x16_S16x126x126x16_0_0_1_0 slices_S3x3x16x32_S1x1x16x32_0_1_0_0 b p q f

theorem stage30_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v30 (F := Ideal) x0 x1 (ix4 b p q f)
      = chans.foldl (fun r c => max r (-(x0 (ix4 b (shift 0 p) (shift 2 q) c)) + x1 (ix4 0 2 c f))) ⊥ :=
  offset_term x0 x1 0 2 slices_S16x128x128x16_S16x126x126x16_0_0_2_0 slices_S3x3x16x32_S1x1x16x32_0_2_0_0 b p q f

theorem stage40_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v40 (F := Ideal) x0 x1 (ix4 b p q f)
      = chans.foldl (fun r c => max r (-(x0 (ix4 b (shift 1 p) (shift 0 q) c)) + x1 (ix4 1 0 c f))) ⊥ :=
  offset_term x0 x1 1 0 slices_S16x128x128x16_S16x126x126x16_0_1_0_0 slices_S3x3x16x32_S1x1x16x32_1_0_0_0 b p q f

theorem stage50_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v50 (F := Ideal) x0 x1 (ix4 b p q f)
      = chans.foldl (fun r c => max r (-(x0 (ix4 b (shift 1 p) (shift 1 q) c)) + x1 (ix4 1 1 c f))) ⊥ :=
  offset_term x0 x1 1 1 slices_S16x128x128x16_S16x126x126x16_0_1_1_0 slices_S3x3x16x32_S1x1x16x32_1_1_0_0 b p q f

theorem stage60_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v60 (F := Ideal) x0 x1 (ix4 b p q f)
      = chans.foldl (fun r c => max r (-(x0 (ix4 b (shift 1 p) (shift 2 q) c)) + x1 (ix4 1 2 c f))) ⊥ :=
  offset_term x0 x1 1 2 slices_S16x128x128x16_S16x126x126x16_0_1_2_0 slices_S3x3x16x32_S1x1x16x32_1_2_0_0 b p q f

theorem stage70_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v70 (F := Ideal) x0 x1 (ix4 b p q f)
      = chans.foldl (fun r c => max r (-(x0 (ix4 b (shift 2 p) (shift 0 q) c)) + x1 (ix4 2 0 c f))) ⊥ :=
  offset_term x0 x1 2 0 slices_S16x128x128x16_S16x126x126x16_0_2_0_0 slices_S3x3x16x32_S1x1x16x32_2_0_0_0 b p q f

theorem stage80_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v80 (F := Ideal) x0 x1 (ix4 b p q f)
      = chans.foldl (fun r c => max r (-(x0 (ix4 b (shift 2 p) (shift 1 q) c)) + x1 (ix4 2 1 c f))) ⊥ :=
  offset_term x0 x1 2 1 slices_S16x128x128x16_S16x126x126x16_0_2_1_0 slices_S3x3x16x32_S1x1x16x32_2_1_0_0 b p q f

theorem stage90_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v90 (F := Ideal) x0 x1 (ix4 b p q f)
      = chans.foldl (fun r c => max r (-(x0 (ix4 b (shift 2 p) (shift 2 q) c)) + x1 (ix4 2 2 c f))) ⊥ :=
  offset_term x0 x1 2 2 slices_S16x128x128x16_S16x126x126x16_0_2_2_0 slices_S3x3x16x32_S1x1x16x32_2_2_0_0 b p q f

/-! ## The result -/

/-- Entry `(b, p, q, f)` of the reference's result, as a function of two arrays: minus the dilation of `(−x) + w`. -/
theorem value_apply (x0 : (⟨S16x128x128x16, .f32⟩ : BufTy).Contents (Elt Ideal)) (x1 : (⟨S3x3x16x32, .f32⟩ : BufTy).Contents (Elt Ideal))
    (b : Fin 16) (p q : Fin 126) (f : Fin 32) :
    val_main_v92 (F := Ideal) x0 x1 (ix4 b p q f)
      = -(dilate fun di dj c => -(x0 (ix4 b (shift di p) (shift dj q) c)) + x1 (ix4 di dj c f)) := by
  rw [val_main_v92_apply, val_main_v91_apply, stage90_apply, val_main_v81_apply, stage80_apply, val_main_v71_apply, stage70_apply,
    val_main_v61_apply, stage60_apply, val_main_v51_apply, stage50_apply, val_main_v41_apply, stage40_apply,
    val_main_v31_apply, stage30_apply, val_main_v21_apply, stage20_apply, val_main_v11_apply, stage10_apply,
    val_main_v1_apply, val_main_cst_apply, Ideal.ofBits_def, ofBits_neg_inf]
  unfold dilate offs
  simp only [List.foldl_cons, List.foldl_nil]
  rfl

/-- The reference's result array, on argument arrays of real numbers, is the eroded image. -/
theorem result_eq (m : (ℓ : Loc nD τ sig) → Buf (Elt Ideal) ℓ) (c : Dev nD)
    (hx : ∀ i, ∃ r : ℝ, (m ((c.tc : Thread nD τ).loc main_arg0) : S16x128x128x16.Idx → EReal) i = (r : EReal))
    (hw : ∀ i, ∃ r : ℝ, (m ((c.tc : Thread nD τ).loc main_arg1) : S3x3x16x32.Idx → EReal) i = (r : EReal)) :
    (Cert.ReferenceIdeal.Value.res_main_v92 m c : S16x126x126x32.Idx → EReal)
      = erosion (m ((c.tc : Thread nD τ).loc main_arg0)) (m ((c.tc : Thread nD τ).loc main_arg1)) := by
  rw [val_main_v92_eq]
  generalize m ((c.tc : Thread nD τ).loc main_arg0) = x0 at hx ⊢
  generalize m ((c.tc : Thread nD τ).loc main_arg1) = x1 at hw ⊢
  funext j
  obtain ⟨b, p, q, f, rfl⟩ : ∃ (b : Fin 16) (p q : Fin 126) (f : Fin 32), j = ix4 b p q f := ⟨j 0, j 1, j 2, j 3, eq_ix4 j⟩
  exact (value_apply x0 x1 b p q f).trans (erosionAt_eq_neg_dilate x0 x1 hx hw b p q f)

end Cert.Erosion.RefValue

end
-- ==== Proof.Finite.lean ====
/-
  What the precondition says: it is the conjunction of two "all entries satisfy |v| < +∞" tests, one per argument
  array. An extended real whose absolute value is below +∞ is a real number, so under the precondition every entry
  of the image and of the structuring element is (the inclusion of) a real number.
-/
import proofs.«161054_j62861141344689_1_alg».proof.Pre_finite_inputs
import proofs.«161054_j62861141344689_1_alg».proof.Proof.Gen.Pre_finite_inputs
import Idealize.ShloMosaic.Lib.ReduceAll
import Idealize.ShloMosaic.Lib.ValueIdx
import Idealize.ShloMosaic.PureOps.Ideal

namespace Cert.Erosion.Finite

open Idealize.ShloMosaic

/-- The word of positive infinity denotes the top of the extended reals. -/
theorem ofBits_inf : Ideal.ofBits .f32 0x7F800000#32 = ⊤ := by simp [Ideal.ofBits, Ideal.ieee]

/-- An extended real whose absolute value `max x (−x)` is strictly below +∞ is a real number. -/
theorem real_of_abs_lt_inf (x : EReal) (h : Ideal.cmp .olt (max x (-x)) (Ideal.ofBits .f32 0x7F800000#32) = 1#1) :
    ∃ r : ℝ, x = (r : EReal) := by
  rw [ofBits_inf] at h
  unfold Ideal.cmp at h
  have hlt : max x (-x) < ⊤ := by
    by_contra hn
    simp [hn] at h
  induction x using EReal.rec with
  | bot => simp at hlt
  | coe r => exact ⟨r, rfl⟩
  | top => simp at hlt

instance : Subsingleton Cert.Pre_finite_inputs.S_.Idx := ⟨fun a b => funext fun d => d.elim0⟩

/-- Under the precondition both argument arrays hold real numbers only. -/
theorem real_of_pre (x : FVec Ideal Cert.Pre_finite_inputs.S16x128x128x16 .f32) (w : FVec Ideal Cert.Pre_finite_inputs.S3x3x16x32 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  change IntOp.andi _ _ = 1#1 at h0
  obtain ⟨hx, hw⟩ := IntOp.andi_eq_one.1 h0
  exact ⟨fun i => real_of_abs_lt_inf (x i) (Host.reduce_andi_all _ _ _ _ _ hx i),
    fun i => real_of_abs_lt_inf (w i) (Host.reduce_andi_all _ _ _ _ _ hw i)⟩

end Cert.Erosion.Finite
-- ==== Proof.lean ====
/- The proof of `Cert.Claim` (proofs.«161054_j62861141344689_1_alg».proof.Defs): grey-scale erosion by a sliding 3 × 3 window.

   THE MATHEMATICS. For an image `x` of shape [16, 128, 128, 16] and a structuring element `w` of shape [3, 3, 16, 32], the
   eroded image at (b, p, q, f) is the minimum over the window offsets (di, dj) and the channels c of
   `x(b, p + di, q + dj, c) − w(di, dj, c, f)` (Proof/Spec.lean: `erosion`, a running minimum from +∞).
   • The kernel, one image per grid point, starts an accumulator at +∞ and takes the minimum with each of the 144
     differences in turn; read entry by entry through its slices, reshapes and broadcasts, the block it stores is that
     running minimum of its loads (Proof/KernelBody.lean), so the block written back at point `t` is image `t` of the eroded
     image, and the sixteen blocks cover the result (Proof/KernelRun.lean).
   • The reference computes minus the dilation of the negated image: per offset the maximum over the channels of
     `(−x) + w`, the running maximum of the nine from −∞, negated (Proof/RefBlock.lean, Proof/RefValue.lean).
   • The two agree because negation turns a maximum into a minimum on the extended reals and `−((−x) + w) = x − w` for REAL
     `x` and `w` (Proof/Spec.lean `neg_dilate`, `erosionAt_eq_neg_dilate`); that last step fails at the infinities, and
     it is where the precondition — every entry of both arrays finite, hence a real number (Proof/Finite.lean) — is used.
   The three frames are the generated frame runs (the reference's is its run with the result dropped); the kernel's
   idealization rewrote nothing, so `preserves` is `True`. -/
import proofs.«161054_j62861141344689_1_alg».proof.Defs
import proofs.«161054_j62861141344689_1_alg».proof.Proof.Gen.Kernel
import proofs.«161054_j62861141344689_1_alg».proof.Proof.Gen.Kernel.Frame
import proofs.«161054_j62861141344689_1_alg».proof.Proof.Gen.KernelIdeal
import proofs.«161054_j62861141344689_1_alg».proof.Proof.Gen.KernelIdeal.Frame
import proofs.«161054_j62861141344689_1_alg».proof.Proof.Gen.ReferenceIdeal
import proofs.«161054_j62861141344689_1_alg».proof.Proof.Gen.Pre_finite_inputs
import proofs.«161054_j62861141344689_1_alg».proof.Proof.Gen.ReferenceIdeal.Run
import proofs.«161054_j62861141344689_1_alg».proof.Proof.KernelRun
import proofs.«161054_j62861141344689_1_alg».proof.Proof.RefValue
import proofs.«161054_j62861141344689_1_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: nothing to restate. -/
theorem preserves : Cert.preserves_Kernel_KernelIdeal := trivial

/-- On finite arguments both programs end with the eroded image of the arguments: the kernel by what its blocks hold, the
    reference as minus the dilation of the negated image, which on real numbers is the erosion. -/
theorem algebraic : Cert.algebraic_KernelIdeal_ReferenceIdeal := by
  intro m ρ m' ρ' hpre hagree
  refine ⟨fun c => Cert.Erosion.erosion (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Erosion.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Erosion.Finite.real_of_pre _ _ (hpre c)
  rw [Cert.Erosion.RefValue.result_eq m' c (fun i => by rw [(hagree c).1]; exact hx i) (fun i => by rw [(hagree c).2]; exact hw i),
    (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
